-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  main_v3
-- ==== Kernel.lean ====
abbrev S4x4096x4096 : Shape := ⟨3, ![4, 4096, 4096]⟩
abbrev S16384x4096 : Shape := ⟨2, ![16384, 4096]⟩
abbrev S512 : Shape := ⟨1, ![512]⟩
abbrev S512x1 : Shape := ⟨2, ![512, 1]⟩
abbrev S128 : Shape := ⟨1, ![128]⟩
abbrev S1x128 : Shape := ⟨2, ![1, 128]⟩
abbrev S_ : Shape := ⟨0, ![]⟩
abbrev S512x128 : Shape := ⟨2, ![512, 128]⟩
abbrev S16384x1024 : Shape := ⟨2, ![16384, 1024]⟩
abbrev S1024x4096 : Shape := ⟨2, ![1024, 4096]⟩
abbrev S1024x1024 : Shape := ⟨2, ![1024, 1024]⟩
abbrev S1024x512 : Shape := ⟨2, ![1024, 512]⟩
abbrev S1024x128 : Shape := ⟨2, ![1024, 128]⟩
abbrev S4x4096x1024 : Shape := ⟨3, ![4, 4096, 1024]⟩

abbrev nBuf : Space → Nat
  | .hbm => 15
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S16384x4096, .f32⟩
  | .hbm, ⟨2, _⟩ => ⟨S512, .i32⟩
  | .hbm, ⟨3, _⟩ => ⟨S512x1, .i32⟩
  | .hbm, ⟨4, _⟩ => ⟨S128, .i32⟩
  | .hbm, ⟨5, _⟩ => ⟨S1x128, .i32⟩
  | .hbm, ⟨6, _⟩ => ⟨S_, .i32⟩
  | .hbm, ⟨7, _⟩ => ⟨S1x128, .i32⟩
  | .hbm, ⟨8, _⟩ => ⟨S1x128, .i32⟩
  | .hbm, ⟨9, _⟩ => ⟨S512x128, .i32⟩
  | .hbm, ⟨10, _⟩ => ⟨S512x128, .i32⟩
  | .hbm, ⟨11, _⟩ => ⟨S512x128, .i1⟩
  | .hbm, ⟨12, _⟩ => ⟨S512x128, .f32⟩
  | .hbm, ⟨13, _⟩ => ⟨S16384x1024, .f32⟩
  | .hbm, ⟨14, _⟩ => ⟨S4x4096x1024, .f32⟩
  | .local _ .vmem, ⟨0, _⟩ => ⟨S1024x4096, .f32⟩
  | .local _ .vmem, ⟨1, _⟩ => ⟨S1024x4096, .f32⟩
  | .local _ .vmem, ⟨2, _⟩ => ⟨S512x128, .f32⟩
  | .local _ .vmem, ⟨3, _⟩ => ⟨S1024x1024, .f32⟩
  | .local _ .vmem, ⟨4, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  bcast_S512_S512x1_0 : S512.BroadcastsInDim S512x1 (![0] : Fin 1 → Fin S512x1.rank)
  bcast_S128_S1x128_1 : S128.BroadcastsInDim S1x128 (![1] : Fin 1 → Fin S1x128.rank)
  bcast_S_S1x128 : S_.BroadcastsInDim S1x128 (![] : Fin 0 → Fin S1x128.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x4096_S1024x512_0_0 : ∀ a, (![0, 0] : Fin 2 → Nat) a + S1024x512.size a ≤ S1024x4096.size a
  h_S1024x512 : 0 < S1024x512.numel
  shapeCasts_S1024x512_S1024x512 : S1024x512.ShapeCasts S1024x512
  inb_S1024x1024_S1024x128_0_0 : ∀ a, (![0, 0] : Fin 2 → Nat) a + S1024x128.size a ≤ S1024x1024.size a
  h_S1024x128 : 0 < S1024x128.numel
  inb_S1024x4096_S1024x512_0_512 : ∀ a, (![0, 512] : Fin 2 → Nat) a + S1024x512.size a ≤ S1024x4096.size a
  inb_S1024x1024_S1024x128_0_128 : ∀ a, (![0, 128] : Fin 2 → Nat) a + S1024x128.size a ≤ S1024x1024.size a
  inb_S1024x4096_S1024x512_0_1024 : ∀ a, (![0, 1024] : Fin 2 → Nat) a + S1024x512.size a ≤ S1024x4096.size a
  inb_S1024x1024_S1024x128_0_256 : ∀ a, (![0, 256] : Fin 2 → Nat) a + S1024x128.size a ≤ S1024x1024.size a
  inb_S1024x4096_S1024x512_0_1536 : ∀ a, (![0, 1536] : Fin 2 → Nat) a + S1024x512.size a ≤ S1024x4096.size a
  inb_S1024x1024_S1024x128_0_384 : ∀ a, (![0, 384] : Fin 2 → Nat) a + S1024x128.size a ≤ S1024x1024.size a
  inb_S1024x4096_S1024x512_0_2048 : ∀ a, (![0, 2048] : Fin 2 → Nat) a + S1024x512.size a ≤ S1024x4096.size a
  inb_S1024x1024_S1024x128_0_512 : ∀ a, (![0, 512] : Fin 2 → Nat) a + S1024x128.size a ≤ S1024x1024.size a
  inb_S1024x4096_S1024x512_0_2560 : ∀ a, (![0, 2560] : Fin 2 → Nat) a + S1024x512.size a ≤ S1024x4096.size a
  inb_S1024x1024_S1024x128_0_640 : ∀ a, (![0, 640] : Fin 2 → Nat) a + S1024x128.size a ≤ S1024x1024.size a
  inb_S1024x4096_S1024x512_0_3072 : ∀ a, (![0, 3072] : Fin 2 → Nat) a + S1024x512.size a ≤ S1024x4096.size a
  inb_S1024x1024_S1024x128_0_768 : ∀ a, (![0, 768] : Fin 2 → Nat) a + S1024x128.size a ≤ S1024x1024.size a
  inb_S1024x4096_S1024x512_0_3584 : ∀ a, (![0, 3584] : Fin 2 → Nat) a + S1024x512.size a ≤ S1024x4096.size a
  inb_S1024x1024_S1024x128_0_896 : ∀ a, (![0, 896] : Fin 2 → Nat) a + S1024x128.size a ≤ S1024x1024.size a
  shapeCasts_S16384x1024_S4x4096x1024 : S16384x1024.ShapeCasts S4x4096x1024
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .f32 = 32 ∨ (Rect.block (s := S16384x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S4x4096x1024 : Shape := ⟨3, ![4, 4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1, .i32⟩
  | .hbm, ⟨11, _⟩ => ⟨S_, .i32⟩
  | .hbm, ⟨12, _⟩ => ⟨S1024x1, .i32⟩
  | .hbm, ⟨13, _⟩ => ⟨S1024x1, .i1⟩
  | .hbm, ⟨14, _⟩ => ⟨S1x1, .i32⟩
  | .hbm, ⟨15, _⟩ => ⟨S1024x1, .i32⟩
  | .hbm, ⟨16, _⟩ => ⟨S1024x1, .i1⟩
  | .hbm, ⟨17, _⟩ => ⟨S1024x1, .i1⟩
  | .hbm, ⟨18, _⟩ => ⟨S_, .i1⟩
  | .hbm, ⟨19, _⟩ => ⟨S1024, .i1⟩
  | .hbm, ⟨20, _⟩ => ⟨S4x4096x1024, .f32⟩
  | .hbm, ⟨21, _⟩ => ⟨S4x4096x1024, .i1⟩
  | .hbm, ⟨22, _⟩ => ⟨S_, .f32⟩
  | .hbm, ⟨23, _⟩ => ⟨S4x4096x1024, .f32⟩
  | .hbm, ⟨24, _⟩ => ⟨S4x4096x1024, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S4x4096x1024_2 : S1024.BroadcastsInDim S4x4096x1024 (![2] : Fin 1 → Fin S4x4096x1024.rank)
  bcast_S_S4x4096x1024 : S_.BroadcastsInDim S4x4096x1024 (![] : Fin 0 → Fin S4x4096x1024.rank)
  gather_S4x4096x4096_S1024x1_S4x4096x1024_01_2_n_n_2_1_440961_wf : GatherDims.WF S4x4096x4096 S1024x1 S4x4096x1024 [0, 1] [2] [] [2] [] 1 ![4, 4096, 1]

variable [Facts₀]

def gather_S4x4096x4096_S1024x1_S4x4096x1024_01_2_n_n_2_1_440961 : GatherDims S4x4096x4096 S1024x1 S4x4096x1024 where
  offsetDims := [0, 1]
  collapsedSliceDims := [2]
  operandBatchingDims := []
  startIndicesBatchingDims := []
  startIndexMap := [2]
  indexVectorDim := 1
  sliceSizes := ![4, 4096, 1]
  wf := gather_S4x4096x4096_S1024x1_S4x4096x1024_01_2_n_n_2_1_440961_wf

class Facts : Prop extends Facts₀ where

variable [Facts]
-- ==== Proof.Spec.lean ====
/-
  The common value of the two programs, as one function of the argument array.

  Both programs keep every fourth entry along the last axis of an array of shape [4, 4096, 4096]:
  entry (b, r, k) of the result, of shape [4, 4096, 1024], is entry (b, r, 4·k) of the argument.
  This module imports no program: it only names that function, over literal shapes, so that each
  program's run can be stated against the same term.
-/
import Idealize.ShloMosaic.PureOps.Ideal
import Idealize.ShloMosaic.Lib.ValueIdx

namespace Cert.EveryFourth

open Idealize.ShloMosaic Idealize.ShloMosaic.ValueIdx

/-- The column of the argument that column `k` of the result reads: `4·k`, which lies below 4096
    because `k` lies below 1024. -/
def col (k : Fin 1024) : Fin 4096 := ⟨4 * k.val, by have := k.isLt; omega⟩

theorem col_val (k : Fin 1024) : (col k).val = 4 * k.val := rfl

/-- Every fourth entry along the last axis: result entry (b, r, k) is argument entry (b, r, 4·k). -/
def pick {α : Type} (x : (⟨3, ![4, 4096, 4096]⟩ : Shape).Idx → α) : (⟨3, ![4, 4096, 1024]⟩ : Shape).Idx → α :=
  fun i => x (ix3 (n0 := 4) (n1 := 4096) (n2 := 4096) ⟨(i 0).val, (i 0).isLt⟩ ⟨(i 1).val, (i 1).isLt⟩
    (col ⟨(i 2).val, (i 2).isLt⟩))

/-- The same at an index given by its three coordinates. -/
theorem pick_ix3 {α : Type} (x : (⟨3, ![4, 4096, 4096]⟩ : Shape).Idx → α) (b : Fin 4) (r : Fin 4096) (k : Fin 1024) :
    pick x (ix3 b r k) = x (ix3 b r (col k)) := rfl

end Cert.EveryFourth
-- ==== Proof.KerDot.lean ====
/-
  One block product of the kernel, read at an entry.

  The kernel multiplies a [1024, 512] slice of its row block by a [512, 128] matrix into a zero
  accumulator. On the extended reals that product, at entry (r, l), is the plain finite sum over
  the 512 contracted positions c of slice(r, c) · matrix(c, l): no rounding and no order of
  summation is left in it. When the matrix has a single one in column l, at row 4·l, and zeros
  elsewhere in that column, every term but one is a product with zero, and zero times any
  extended real is zero; the remaining term is a product with one. So the entry is slice(r, 4·l).
-/
import proofs.«112296_g15977278341198_cont_week2b_1507_23_alg».proof.Proof.Gen.KernelIdeal
import Idealize.ShloMosaic.PureOps.Ideal.Laws
import Idealize.ShloMosaic.Lib.ValueIdx

noncomputable section

namespace Cert.KernelIdeal.KerValue

open Cert.KernelIdeal Cert.KernelIdeal.Gen Idealize.ShloMosaic Idealize.ShloMosaic.ValueIdx

/-- The contraction shape of the block product has one axis. -/
theorem contr_rank : dot_S1024x512_S512x128_S1024x128_1_0_0_1_n_n.contr.rank = 1 := rfl

/-- That axis has 512 positions. -/
theorem contr_size : dot_S1024x512_S512x128_S1024x128_1_0_0_1_n_n.contr.size ⟨0, by rw [contr_rank]; exact Nat.one_pos⟩ = 512 := rfl

/-- The left operand's index at result entry (r, l) and contracted position c is (r, c). -/
theorem lhs_at (r : Fin 1024) (l : Fin 128) (c : Fin 512) :
    dot_S1024x512_S512x128_S1024x128_1_0_0_1_n_n.lhsIdx (ix2 r l)
        ((contrEquiv1 dot_S1024x512_S512x128_S1024x128_1_0_0_1_n_n 512 contr_rank contr_size).symm c) = ix2 r c := by
  funext a
  refine Fin.ext ?_
  match a with
  | ⟨0, _⟩ => rfl
  | ⟨1, _⟩ => rfl

/-- The right operand's index there is (c, l). -/
theorem rhs_at (r : Fin 1024) (l : Fin 128) (c : Fin 512) :
    dot_S1024x512_S512x128_S1024x128_1_0_0_1_n_n.rhsIdx (ix2 r l)
        ((contrEquiv1 dot_S1024x512_S512x128_S1024x128_1_0_0_1_n_n 512 contr_rank contr_size).symm c) = ix2 c l := by
  funext a
  refine Fin.ext ?_
  match a with
  | ⟨0, _⟩ => rfl
  | ⟨1, _⟩ => rfl

/-- The block product into a zero accumulator, at entry (r, l), is the sum over the contracted
    positions of the operands' products. -/
theorem dot_apply (x : FVec Ideal S1024x512 .f32) (q : FVec Ideal S512x128 .f32) (r : Fin 1024) (l : Fin 128) :
    matmul dot_S1024x512_S512x128_S1024x128_1_0_0_1_n_n none x q (constant S1024x128 .f32 0x00000000#32) (ix2 r l)
      = ∑ c : Fin 512, x (ix2 r c) * q (ix2 c l) := by
  refine (Ideal.matmul_constant_zero_apply dot_S1024x512_S512x128_S1024x128_1_0_0_1_n_n none x q (ix2 r l)).trans ?_
  rw [← Equiv.sum_comp (contrEquiv1 dot_S1024x512_S512x128_S1024x128_1_0_0_1_n_n 512 contr_rank contr_size).symm]
  refine Finset.sum_congr rfl fun c _ => ?_
  rw [lhs_at, rhs_at]

/-- A matrix with a single one in each column l, at row 4·l. -/
def Selects (q : FVec Ideal S512x128 .f32) : Prop :=
  ∀ (c : Fin 512) (l : Fin 128), q (ix2 c l) = if c.val = 4 * l.val then 1 else 0

/-- Against such a matrix the block product keeps every fourth column of the slice. -/
theorem dot_selects (x : FVec Ideal S1024x512 .f32) (q : FVec Ideal S512x128 .f32) (hq : Selects q) (r : Fin 1024) (l : Fin 128) :
    matmul dot_S1024x512_S512x128_S1024x128_1_0_0_1_n_n none x q (constant S1024x128 .f32 0x00000000#32) (ix2 r l)
      = x (ix2 r ⟨4 * l.val, by have := l.isLt; omega⟩) := by
  rw [dot_apply]
  rw [Finset.sum_eq_single (⟨4 * l.val, by have := l.isLt; omega⟩ : Fin 512)]
  · rw [hq, if_pos rfl, mul_one]
  · intro c _ hc
    rw [hq, if_neg (fun h => hc (Fin.ext h)), mul_zero]
  · intro h; exact absurd (Finset.mem_univ _) h

end Cert.KernelIdeal.KerValue

end
-- ==== Proof.KerBlock.lean ====
/-
  What one grid point leaves in the output's staging buffer.

  At a grid point the body holds a [1024, 4096] block of rows and the [512, 128] matrix, and writes
  a [1024, 1024] block in eight column pieces: piece j (columns 128·j … 128·j + 127) is the product
  of columns 512·j … 512·j + 511 of the row block with the matrix. When the matrix has its single
  one of column l at row 4·l, entry (r, l) of piece j is entry (r, 512·j + 4·l) of the row block,
  and 512·j + 4·l = 4·(128·j + l): every piece is the same function of the buffer's own index —
  entry (r, k) of the written block is entry (r, 4·k) of the row block — and the eight pieces
  tile the buffer. So the whole buffer holds that one function.
-/
import proofs.«112296_g15977278341198_cont_week2b_1507_23_alg».proof.Proof.Gen.KernelIdeal.Frame
import proofs.«112296_g15977278341198_cont_week2b_1507_23_alg».proof.Proof.KerDot
import Idealize.ShloMosaic.Lib.Pipeline.Value

noncomputable section

namespace Cert.KernelIdeal.KerValue

open Cert.KernelIdeal Cert.KernelIdeal.Gen Idealize.ShloMosaic Idealize.ShloMosaic.ValueIdx

/-- Every fourth column of a [1024, 4096] block: entry (r, k) is the block's entry (r, 4·k). -/
def blockPick (x0 : Vec Ideal S1024x4096 .f32) : Vec Ideal S1024x1024 .f32 :=
  fun y => x0 (ix2 (n0 := 1024) (n1 := 4096) ⟨(y 0).val, (y 0).isLt⟩
    ⟨4 * (y 1).val, by have h : (y 1).val < 1024 := (y 1).isLt; omega⟩)

theorem hzero : (![0, 0] : Fin 2 → Nat) = fun _ => 0 := funext fun a => by fin_cases a <;> rfl

/-- One piece: the product of the 512 columns from `oi` on with the selecting matrix, at entry
    (r, l), is the row block's entry (r, oi + 4·l); with `oi = 4·oo` that is `blockPick` at the
    piece's entry (r, oo + l) of the buffer. -/
theorem piece_eq (x0 : Vec Ideal S1024x4096 .f32) (q : FVec Ideal S512x128 .f32) (hq : Selects q)
    (oo oi : Nat) (hoi : oi = 4 * oo)
    (inbI : ∀ a, (![0, oi] : Fin 2 → Nat) a + S1024x512.size a ≤ S1024x4096.size a)
    (inbO : ∀ a, (![0, oo] : Fin 2 → Nat) a + S1024x128.size a ≤ S1024x1024.size a)
    (r : Fin 1024) (l : Fin 128) :
    matmul (φ₁ := .f32) dot_S1024x512_S512x128_S1024x128_1_0_0_1_n_n none
        (View.ld x0 (Rect.unit (s := S1024x4096) ![0, oi] S1024x512.size inbI) : FVec Ideal S1024x512 .f32) q
        (constant S1024x128 .f32 0x00000000#32) (ix2 r l)
      = blockPick x0 ((Rect.unit (s := S1024x1024) ![0, oo] S1024x128.size inbO).emb (ix2 r l)) := by
  refine (dot_selects _ q hq r l).trans ?_
  unfold blockPick
  refine congrArg x0 (funext fun a => Fin.ext ?_)
  match a with
  | ⟨0, _⟩ => show 0 + 1 * r.val = 0 + 1 * r.val; rfl
  | ⟨1, _⟩ =>
    show oi + 1 * (4 * l.val) = 4 * (oo + 1 * l.val)
    omega

/-- The matrix as the body uses it: loaded whole, under a change of shape that changes nothing. -/
theorem matrix_loaded (x1 : Vec Ideal S512x128 .f32) : k0_pay4 (View.ld x1 r0_0) = x1 := by
  unfold k0_pay4
  rw [shapeCast_self, View.ld_unit_zero (S := S512x128) hzero]

/-- A slice of the row block under a change of shape that changes nothing is the slice. -/
theorem slice_loaded (v : Vec Ideal S1024x512 .f32) : k0_pay10 v = v := by
  unfold k0_pay10
  rw [shapeCast_self]

/-- THE WRITTEN BLOCK: with the selecting matrix staged, the body leaves in the output's staging
    buffer every fourth column of the staged row block — each of the eight stored pieces is that
    function on its own columns (`piece_eq`), and together they cover the buffer. -/
theorem out_block (x0 : Vec Ideal S1024x4096 .f32) (x1 : Vec Ideal S512x128 .f32) (hq : Selects x1) :
    out0_2 x0 x1 = blockPick x0 := by
  funext y
  unfold out0_2
  refine View.canon_apply_of_pieces (blockPick x0) _ ?_ y (cover0_2 _ _ _ _ _ _ _ _ y)
  intro p hp x
  simp only [List.mem_cons, List.mem_nil_iff, or_false] at hp
  rcases hp with rfl | rfl | rfl | rfl | rfl | rfl | rfl | rfl
  · obtain ⟨r, l, rfl⟩ : ∃ (r : Fin 1024) (l : Fin 128), x = ix2 r l := ⟨x 0, x 1, eq_ix2 x⟩
    show k0_pay3 (k0_pay4 (View.ld x1 r0_0)) (View.ld x0 r0_15) (ix2 r l) = _
    rw [matrix_loaded]; unfold k0_pay3; rw [shapeCast_self]
    exact piece_eq x0 x1 hq 896 3584 rfl Facts₀.inb_S1024x4096_S1024x512_0_3584 Facts₀.inb_S1024x1024_S1024x128_0_896 r l
  · obtain ⟨r, l, rfl⟩ : ∃ (r : Fin 1024) (l : Fin 128), x = ix2 r l := ⟨x 0, x 1, eq_ix2 x⟩
    show k0_pay2 (k0_pay4 (View.ld x1 r0_0)) (View.ld x0 r0_13) (ix2 r l) = _
    rw [matrix_loaded]; unfold k0_pay2; rw [shapeCast_self]
    exact piece_eq x0 x1 hq 768 3072 rfl Facts₀.inb_S1024x4096_S1024x512_0_3072 Facts₀.inb_S1024x1024_S1024x128_0_768 r l
  · obtain ⟨r, l, rfl⟩ : ∃ (r : Fin 1024) (l : Fin 128), x = ix2 r l := ⟨x 0, x 1, eq_ix2 x⟩
    show k0_pay1 (k0_pay4 (View.ld x1 r0_0)) (k0_pay10 (View.ld x0 r0_11)) (constant S1024x128 .f32 0x00000000#32) (ix2 r l) = _
    rw [matrix_loaded, slice_loaded]; unfold k0_pay1
    exact piece_eq x0 x1 hq 640 2560 rfl Facts₀.inb_S1024x4096_S1024x512_0_2560 Facts₀.inb_S1024x1024_S1024x128_0_640 r l
  · obtain ⟨r, l, rfl⟩ : ∃ (r : Fin 1024) (l : Fin 128), x = ix2 r l := ⟨x 0, x 1, eq_ix2 x⟩
    show k0_pay9 (View.ld x1 r0_0) (View.ld x0 r0_9) (ix2 r l) = _
    unfold k0_pay9; rw [matrix_loaded, shapeCast_self]
    exact piece_eq x0 x1 hq 512 2048 rfl Facts₀.inb_S1024x4096_S1024x512_0_2048 Facts₀.inb_S1024x1024_S1024x128_0_512 r l
  · obtain ⟨r, l, rfl⟩ : ∃ (r : Fin 1024) (l : Fin 128), x = ix2 r l := ⟨x 0, x 1, eq_ix2 x⟩
    show k0_pay8 (View.ld x1 r0_0) (View.ld x0 r0_7) (ix2 r l) = _
    unfold k0_pay8; rw [matrix_loaded, shapeCast_self]
    exact piece_eq x0 x1 hq 384 1536 rfl Facts₀.inb_S1024x4096_S1024x512_0_1536 Facts₀.inb_S1024x1024_S1024x128_0_384 r l
  · obtain ⟨r, l, rfl⟩ : ∃ (r : Fin 1024) (l : Fin 128), x = ix2 r l := ⟨x 0, x 1, eq_ix2 x⟩
    show k0_pay7 (View.ld x1 r0_0) (View.ld x0 r0_5) (ix2 r l) = _
    unfold k0_pay7; rw [matrix_loaded, shapeCast_self]
    exact piece_eq x0 x1 hq 256 1024 rfl Facts₀.inb_S1024x4096_S1024x512_0_1024 Facts₀.inb_S1024x1024_S1024x128_0_256 r l
  · obtain ⟨r, l, rfl⟩ : ∃ (r : Fin 1024) (l : Fin 128), x = ix2 r l := ⟨x 0, x 1, eq_ix2 x⟩
    show k0_pay6 (View.ld x1 r0_0) (View.ld x0 r0_3) (ix2 r l) = _
    unfold k0_pay6; rw [matrix_loaded, shapeCast_self]
    exact piece_eq x0 x1 hq 128 512 rfl Facts₀.inb_S1024x4096_S1024x512_0_512 Facts₀.inb_S1024x1024_S1024x128_0_128 r l
  · obtain ⟨r, l, rfl⟩ : ∃ (r : Fin 1024) (l : Fin 128), x = ix2 r l := ⟨x 0, x 1, eq_ix2 x⟩
    show k0_pay5 (View.ld x1 r0_0) (View.ld x0 r0_1) (ix2 r l) = _
    unfold k0_pay5; rw [matrix_loaded, shapeCast_self]
    exact piece_eq x0 x1 hq 0 0 rfl Facts₀.inb_S1024x4096_S1024x512_0_0 Facts₀.inb_S1024x1024_S1024x128_0_0 r l

end Cert.KernelIdeal.KerValue

end
-- ==== Proof.KerHost.lean ====
/-
  The two arrays the region stages, as the host lines before it leave them.

  The matrix. The host builds a [512, 128] array of ones and zeros: entry (c, l) is one exactly
  when the row number c equals four times the column number l — the row numbers and the column
  numbers are 32-bit counters, and since c < 512 and 4·l < 512 neither wraps, so the comparison of
  the words is the comparison of the numbers. Read as an extended real a one-bit word is the real
  number 1 or 0. So column l has its single one at row 4·l.

  The flattened argument. The [4, 4096, 4096] argument is reshaped to [16384, 4096] keeping
  row-major order: row n of the flat array is row (n / 4096, n mod 4096) of the argument.
-/
import proofs.«112296_g15977278341198_cont_week2b_1507_23_alg».proof.Proof.Gen.KernelIdeal.Frame
import proofs.«112296_g15977278341198_cont_week2b_1507_23_alg».proof.Proof.KerDot
import Idealize.ShloMosaic.Lib.StableHlo.Run
import Idealize.ShloMosaic.Lib.Pipeline.Value

noncomputable section

namespace Cert.KernelIdeal.KerValue

open Cert.KernelIdeal Cert.KernelIdeal.Gen Idealize.ShloMosaic Idealize.ShloMosaic.TcCoe Idealize.SL.Sem
open Idealize.ShloMosaic.StableHlo Idealize.ShloMosaic.ValueIdx

/-- The host's matrix: the comparison "row number = 4 · column number", converted to a float. -/
def hostMatrix : FVec Ideal S512x128 .f32 :=
  uitofp .f32
    (cmpi CmpIPredicate.eq
      (broadcastInDim S512x128 ![0, 1] Facts₀.bcast_S512x1_S512x128_0_1
        (broadcastInDim S512x1 ![0] Facts₀.bcast_S512_S512x1_0 (iotaInDim S512 32 0)))
      (broadcastInDim S512x128 ![0, 1] Facts₀.bcast_S1x128_S512x128_0_1
        (muli (broadcastInDim S1x128 ![] Facts₀.bcast_S_S1x128 (constantI S_ 32 4#32))
          (broadcastInDim S1x128 ![1] Facts₀.bcast_S128_S1x128_1 (iotaInDim S128 32 0)))))

/-- At entry (c, l) it converts the one-bit word of "c = 4·l" on 32-bit counters. -/
theorem hostMatrix_word (c : Fin 512) (l : Fin 128) :
    hostMatrix (ix2 c l)
      = FloatOps.uitofp (F := Ideal) .f32
          (IntOp.cmpi CmpIPredicate.eq (BitVec.ofNat 32 c.val) (IntOp.muli 4#32 (BitVec.ofNat 32 l.val))) := rfl

/-- On counters this small the words are equal exactly when the numbers are. -/
theorem word_eq_iff (c : Fin 512) (l : Fin 128) :
    (BitVec.ofNat 32 c.val == IntOp.muli 4#32 (BitVec.ofNat 32 l.val)) = decide (c.val = 4 * l.val) := by
  have hc := c.isLt
  have hl := l.isLt
  unfold IntOp.muli
  rw [Bool.eq_iff_iff, beq_iff_eq, decide_eq_true_iff, ← BitVec.toNat_inj]
  simp only [BitVec.toNat_ofNat, BitVec.toNat_mul]
  omega

/-- THE MATRIX SELECTS: column l has a single one, at row 4·l. -/
theorem hostMatrix_selects : Selects hostMatrix := by
  intro c l
  rw [hostMatrix_word]
  unfold IntOp.cmpi
  show (((BitVec.ofBool (BitVec.ofNat 32 c.val == IntOp.muli 4#32 (BitVec.ofNat 32 l.val))).toNat : ℝ) : EReal) = _
  rw [word_eq_iff]
  by_cases h : c.val = 4 * l.val
  · rw [if_pos h, decide_eq_true h]; simp
  · rw [if_neg h, decide_eq_false h]; simp

variable (m : (ℓ : Loc nD τ sig) → Buf (Elt Ideal) ℓ)

/-- The region finds the matrix's buffer holding the host's matrix. -/
theorem V_matrix (c : Dev nD) : (V m c main_v10 : S512x128.Idx → EReal) = hostMatrix := by
  show StableHlo.after hostOps0 (fun b => m (c, b)) (Proc.devRef .tc main_v10) = _
  after_results
  rfl

/-- The region finds the flat array holding the argument reshaped. -/
theorem V_flat (c : Dev nD) :
    (V m c main_v0 : S16384x4096.Idx → EReal)
      = shapeCast S16384x4096 (m ((c : Thread nD τ).loc main_arg0)) Facts₀.shapeCasts_S4x4096x4096_S16384x4096 := by
  show StableHlo.after hostOps0 (fun b => m (c, b)) (Proc.devRef .tc main_v0) = _
  after_results
  rfl

/-- Row n of the flat array is row (n / 4096, n mod 4096) of the argument. -/
theorem V_flat_at (c : Dev nD) (n : Fin 16384) (k : Fin 4096) :
    V m c main_v0 (ix2 n k)
      = m ((c : Thread nD τ).loc main_arg0)
          (ix3 (n0 := 4) (n1 := 4096) (n2 := 4096) ⟨n.val / 4096, by have := n.isLt; omega⟩
            ⟨n.val % 4096, Nat.mod_lt _ (by decide)⟩ k) := by
  rw [V_flat]
  refine shapeCast_apply _ _ _ _ ?_
  show ((⟨3, ![4, 4096, 4096]⟩ : Shape).rowMajor (ix3 (n0 := 4) (n1 := 4096) (n2 := 4096) _ _ k)).val
    = ((⟨2, ![16384, 4096]⟩ : Shape).rowMajor (ix2 n k)).val
  rw [Shape.rowMajor_val_three, Shape.rowMajor_val_two]
  show (n.val / 4096 * 4096 + n.val % 4096) * 4096 + k.val = n.val * 4096 + k.val
  have := Nat.div_add_mod n.val 4096
  omega

end Cert.KernelIdeal.KerValue

end
-- ==== Proof.KerArray.lean ====
/-
  From the written blocks to the kernel's result.

  The grid has sixteen points; point t stages rows 1024·t … 1024·t + 1023 of the flat [16384, 4096]
  array and writes back rows 1024·t … 1024·t + 1023 of the [16384, 1024] output, holding every
  fourth column of the staged rows. A written block is therefore the corresponding block of ONE
  function of the flat array — entry (n, k) is the flat array's entry (n, 4·k) — and the sixteen
  blocks tile the output, so after the region the output array is that function. The host line
  after the region reshapes [16384, 1024] to [4, 4096, 1024] in row-major order; together with the
  reshape before the region, entry (b, r, k) of the result is entry (b, r, 4·k) of the argument.
-/
import proofs.«112296_g15977278341198_cont_week2b_1507_23_alg».proof.Proof.Gen.KernelIdeal.Frame
import proofs.«112296_g15977278341198_cont_week2b_1507_23_alg».proof.Proof.KerBlock
import proofs.«112296_g15977278341198_cont_week2b_1507_23_alg».proof.Proof.KerHost
import proofs.«112296_g15977278341198_cont_week2b_1507_23_alg».proof.Proof.Spec
import Idealize.ShloMosaic.Lib.Pipeline.Value
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

/-- Every fourth column of the flat array: entry (n, k) is the flat array's entry (n, 4·k). -/
def flatPick (a : S16384x4096.Idx → EReal) : S16384x1024.Idx → EReal :=
  fun i => a (ix2 (n0 := 16384) (n1 := 4096) ⟨(i 0).val, (i 0).isLt⟩
    ⟨4 * (i 1).val, by have h : (i 1).val < 1024 := (i 1).isLt; omega⟩)

/-- The printed index maps, decided over the sixteen points: the row block and the written block
    are both block t along the rows and block 0 along the columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every fourth column of the row block staged at point t, read through the written block's
    rectangle, is block t of every fourth column of the flat array. -/
theorem block_read (A : S16384x4096.Idx → EReal) (t : Fin cfg0.N) :
    (cfg0.win 2).cut (grid0.coords t) (blockPick (((cfg0.win 0).blk t).view.read (Elt Ideal) A))
      = ((cfg0.win 2).blk t).view.read (Elt Ideal) (flatPick A) := by
  obtain ⟨e0, e1, -, -, e4, e5⟩ := idx_facts t
  funext j
  show A (((cfg0.win 0).blk t).view.emb _) = A _
  refine congrArg A (funext fun a => Fin.ext ?_)
  match a with
  | ⟨0, _⟩ =>
    show win0_0.index t (0 : Fin 2) * 1024 + 1 * (j 0).val = win0_2.index t (0 : Fin 2) * 1024 + 1 * (j 0).val
    omega
  | ⟨1, _⟩ =>
    show win0_0.index t (1 : Fin 2) * 4096 + 1 * (4 * (j 1).val) = 4 * (win0_2.index t (1 : Fin 2) * 1024 + 1 * (j 1).val)
    omega

/-- The matrix's window is the whole matrix at every point. -/
theorem matrix_read (Q : S512x128.Idx → EReal) (t : Fin cfg0.N) :
    ((cfg0.win 1).blk t).view.read (Elt Ideal) Q = Q := by
  obtain ⟨-, -, e2, e3, -, -⟩ := idx_facts t
  funext j
  show Q (((cfg0.win 1).blk t).view.emb j) = Q j
  refine congrArg Q (funext fun a => Fin.ext ?_)
  match a with
  | ⟨0, _⟩ =>
    show win0_1.index t (0 : Fin 2) * 512 + 1 * (j 0).val = (j 0).val
    omega
  | ⟨1, _⟩ =>
    show win0_1.index t (1 : Fin 2) * 128 + 1 * (j 1).val = (j 1).val
    omega

variable (m : (ℓ : Loc nD τ sig) → Buf (Elt Ideal) ℓ) (ρ : Dev nD → PrngReg)

/-- The matrix staged at any point is the host's selecting matrix. -/
theorem staged_matrix_selects (c : Dev nD) (t : Fin cfg0.N) : Selects (iblk m c 1 t) := by
  have e : iblk m c 1 t = hostMatrix := by
    unfold iblk
    exact (matrix_read _ t).trans (V_matrix m c)
  rw [e]
  exact hostMatrix_selects

/-- WHAT POINT t WRITES BACK is block t of every fourth column of the flat array. -/
theorem flushed_eq (c : Dev nD) (t : Fin cfg0.N) :
    (dats m 0 c).flushed 2 t = ((cfg0.win 2).blk t).view.read (Elt Ideal) (flatPick (V m c main_v0)) := by
  show (cfg0.win 2).cut (grid0.coords t) ((dats m 0 c).after 2 t) = _
  rw [after0_2, out_block _ _ (staged_matrix_selects m c t)]
  unfold iblk
  exact block_read (V m c main_v0) t

/-- An index of the output array is in point t's block iff each coordinate is in the block's range. -/
theorem mem_blk (t : Fin cfg0.N) (i : S16384x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v11).slice (win0_2.rect t)).set ↔ _
  rw [View.set_slice_whole, Rect.mem_set_unit]
  exact Iff.rfl

/-- The sixteen written blocks cover the output: row n lies in the block of point n / 1024. -/
theorem cover (i : S16384x1024.Idx) :
    ∃ t : Fin cfg0.N, (cfg0.win 2).flush t = true ∧ i ∈ ((cfg0.win 2).blk t).view.set := by
  have hN : cfg0.N = 16 := N_0
  have hi0 : (i 0).val < 16384 := (i 0).isLt
  have hi1 : (i 1).val < 1024 := (i 1).isLt
  refine ⟨⟨(i 0).val / 1024, by rw [hN]; omega⟩, flush0_2 _, ?_⟩
  rw [mem_blk]
  obtain ⟨-, -, -, -, e4, e5⟩ := idx_facts ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [e4]
    show (i 0).val / 1024 * 1024 ≤ (i 0).val ∧ (i 0).val < (i 0).val / 1024 * 1024 + 1024
    omega
  | ⟨1, _⟩ =>
    show win0_2.index _ (1 : Fin 2) * 1024 ≤ (i 1).val ∧ (i 1).val < win0_2.index _ (1 : Fin 2) * 1024 + 1024
    rw [e5]
    omega

/-- THE OUTPUT ARRAY after the region: every fourth column of the flat array. -/
theorem final (c : Dev nD) : (dats m 0 c).arrAt 2 cfg0.N = flatPick (V m c main_v0) :=
  (dats m 0 c).arrAt_eq_of_cover 2 (flatPick (V m c main_v0)) (fun t _ => flushed_eq m c t) cover

end Cert.KernelIdeal.KerValue

end
-- ==== Proof.KerRun.lean ====
/-
  The kernel's run, read against the common specification.

  After the region the [16384, 1024] output array holds every fourth column of the flat array; the
  one host line that follows reshapes it to [4, 4096, 1024] in row-major order. Entry (b, r, k) of
  the result is therefore entry (4096·b + r, k) of the output array, that is entry
  (4096·b + r, 4·k) of the flat array, that is entry (b, r, 4·k) of the argument: the function the
  specification names. The argument itself is written by no line and by no write-back.
-/
import proofs.«112296_g15977278341198_cont_week2b_1507_23_alg».proof.Proof.Gen.KernelIdeal.Frame
import proofs.«112296_g15977278341198_cont_week2b_1507_23_alg».proof.Proof.KerArray
import proofs.«112296_g15977278341198_cont_week2b_1507_23_alg».proof.Proof.Spec
import Idealize.ShloMosaic.Lib.Pipeline.Value
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The result buffer after the host line that follows the region: the output array, which holds
    every fourth column of the flat array, reshaped. -/
theorem tail_result (c : Dev nD) :
    (Pipeline.afterTail₀ cfgs (dats m) 0 (V0 m) [hostOps1] c main_v12 : S4x4096x1024.Idx → EReal)
      = shapeCast S4x4096x1024 (flatPick (V m c main_v0)) Facts₀.shapeCasts_S16384x1024_S4x4096x1024 := by
  have hw : Pipeline.withArrays (cfgs 0).spec c (V0 m c) (fun w => (dats m 0 c).arrAt w (cfgs 0).N)
      (Proc.devRef .tc main_v11) = flatPick (V m c main_v0) :=
    (Pipeline.withArrays_arr spec0 launch0.win.arr_inj c _ _ 2).trans (final m c)
  unfold Pipeline.afterTail₀
  show StableHlo.after hostOps1 _ (Proc.devRef .tc main_v12) = _
  after_results
  rw [hw]
  rfl

/-- THE KERNEL'S VALUE: the result buffer holds every fourth entry, along the last axis, of the
    argument. -/
theorem result_eq (c : Dev nD) :
    (Pipeline.afterTail₀ cfgs (dats m) 0 (V0 m) [hostOps1] c main_v12 : S4x4096x1024.Idx → EReal)
      = Cert.EveryFourth.pick (m ((c : Thread nD τ).loc main_arg0)) := by
  rw [tail_result]
  funext i
  obtain ⟨b, r, k, rfl⟩ : ∃ (b : Fin 4) (r : Fin 4096) (k : Fin 1024), i = ix3 b r k := ⟨i 0, i 1, i 2, eq_ix3 i⟩
  rw [Cert.EveryFourth.pick_ix3]
  have hb := b.isLt
  have hr := r.isLt
  have hrow : 4096 * b.val + r.val < 16384 := by omega
  refine (shapeCast_apply (flatPick (V m c main_v0)) _ (ix3 b r k)
    (ix2 (n0 := 16384) (n1 := 1024) ⟨4096 * b.val + r.val, hrow⟩ k) ?_).trans ?_
  · show ((⟨2, ![16384, 1024]⟩ : Shape).rowMajor (ix2 (n0 := 16384) (n1 := 1024) ⟨4096 * b.val + r.val, hrow⟩ k)).val
      = ((⟨3, ![4, 4096, 1024]⟩ : Shape).rowMajor (ix3 b r k)).val
    rw [Shape.rowMajor_val_three, Shape.rowMajor_val_two]
    show (4096 * b.val + r.val) * 1024 + k.val = (b.val * 4096 + r.val) * 1024 + k.val
    omega
  · show V m c main_v0 (ix2 (n0 := 16384) (n1 := 4096) ⟨4096 * b.val + r.val, hrow⟩ ⟨4 * k.val, _⟩) = _
    rw [V_flat_at]
    refine congrArg _ (funext fun a => Fin.ext ?_)
    match a with
    | ⟨0, _⟩ => show (4096 * b.val + r.val) / 4096 = b.val; omega
    | ⟨1, _⟩ => show (4096 * b.val + r.val) % 4096 = r.val; omega
    | ⟨2, _⟩ => rfl

/-- THE KERNEL'S RUN: every weakly fair execution terminates, the result buffer holding every
    fourth entry along the last axis of the argument, the argument unchanged. -/
theorem run : θ_run (defs (F := Ideal)) (onTc (τ := τ) (main (F := Ideal))) ⟨m, fun _ => 0, ρ⟩ fun r => ∀ c : Dev nD,
      r.2.mem ((c.tc : Thread nD τ).loc main_v12) = Cert.EveryFourth.pick (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v12 (Pipeline.mem_restRefs_of main_v12 (by decide) (by decide))).trans (result_eq m c),
        ((h c).2 main_arg0 (Pipeline.mem_restRefs_of main_arg0 (by decide) (by decide))).trans (W_main_arg0 m (dats m) c)⟩)
    (run_main m ρ)

end Cert.KernelIdeal.KerValue

end
-- ==== Proof.RefTable.lean ====
/-
  The index table of the reference, read as arithmetic.

  The reference takes its columns through a constant table of 1024 signed 32-bit words, printed element by
  element. Entry k of that table is the word of the number 4·k: the table lists 0, 4, 8, …, 4092. This module
  proves that once, for every k, by evaluating both sides, and names the table as an array (`table`) with that
  one fact about it (`table_apply`); every later step speaks of the word of 4·k only.
-/
import proofs.«112296_g15977278341198_cont_week2b_1507_23_alg».proof.ReferenceIdeal
import Idealize.ShloMosaic.Lib.ValueIdx

namespace Cert.ReferenceIdeal.RefValue

open Cert.ReferenceIdeal Idealize.ShloMosaic Idealize.ShloMosaic.ValueIdx

/-- Entry `k` of the reference's index table is the 32-bit word of `4·k`. -/
theorem lit0_eq : ∀ k : Fin 1024, lit0 k = BitVec.ofNat 32 (4 * k.val) := by
  decide +kernel

/-- The table as the array the reference's first operation holds: element `i` is the table's entry at `i`'s
    row-major position (for a one-axis array, its coordinate). -/
def table : IVec S1024 32 := fun i => lit0 (S1024.rowMajor i)

/-- Element `k` of that array is the word of `4·k`. -/
theorem table_apply (k : Fin 1024) : table (ix1 k) = BitVec.ofNat 32 (4 * k.val) :=
  (congrArg lit0 (Fin.ext (Shape.rowMajor_val_one (ix1 k)))).trans (lit0_eq k)

end Cert.ReferenceIdeal.RefValue
-- ==== Proof.LibTakeLast.lean ====
/-
  A gather along the LAST axis of a rank-3 operand, read at an index.

  Taking the entries `x[:, :, idx]` of an array `x : [A, B, N]` at a list of integers `idx : [K]` is the gather with
  offset axes `[0, 1]`, collapsed slice axes `[2]`, start index map `[2]`, slice sizes `[A, B, 1]` and the index
  vector on axis 1 of the indices seen as `[K, 1]`. Result element `(a, b, k)` is `x` at `(a, b, c)`, where `c` is the
  start index `idx[k, 0]` read as a signed integer and clamped into `[0, N − 1]` (a gather clamps every start index so
  that its slice fits): the two leading axes are offset axes of a full slice (start 0, then the result's own
  coordinate), the last axis is collapsed (a slice of one element at the clamped start).
-/
import Idealize.ShloMosaic.Lib.ValueIdx

noncomputable section

namespace Cert.TakeLast

open Idealize.ShloMosaic Idealize.ShloMosaic.ValueIdx

variable {α : Type}

/-- Those dimension numbers for an operand `[A, B, N]`, start indices `[K, 1]` and result `[A, B, K]`; their
    conditions `wf` are decided on a program's literal shapes. -/
abbrev takeLastDims (A B N K : Nat)
    (wf : GatherDims.WF ⟨3, ![A, B, N]⟩ ⟨2, ![K, 1]⟩ ⟨3, ![A, B, K]⟩ [0, 1] [2] [] [2] [] 1 ![A, B, 1]) :
    GatherDims ⟨3, ![A, B, N]⟩ ⟨2, ![K, 1]⟩ ⟨3, ![A, B, K]⟩ where
  offsetDims := [0, 1]
  collapsedSliceDims := [2]
  operandBatchingDims := []
  startIndicesBatchingDims := []
  startIndexMap := [2]
  indexVectorDim := 1
  sliceSizes := ![A, B, 1]
  wf := wf

/-- THE GATHER READ AT `(a, b, k)`: the operand at `(a, b, c)`, `c` the start index `idx[k, 0]` read signed and
    clamped into `[0, N − 1]`. -/
theorem gather_takeLast_apply {A B N K w : Nat} (hN : 0 < N)
    (wf : GatherDims.WF ⟨3, ![A, B, N]⟩ ⟨2, ![K, 1]⟩ ⟨3, ![A, B, K]⟩ [0, 1] [2] [] [2] [] 1 ![A, B, 1])
    (x : (⟨3, ![A, B, N]⟩ : Shape).Idx → α) (idx : IVec ⟨2, ![K, 1]⟩ w) (a : Fin A) (b : Fin B) (k : Fin K) :
    Host.gather (takeLastDims A B N K wf) x idx (ix3 a b k)
      = x (ix3 a b ⟨min (idx (ix2 k (0 : Fin 1))).toInt.toNat (N - 1), by omega⟩) := by
  unfold Host.gather
  congr 1
  funext c
  refine Fin.ext ?_
  show (takeLastDims A B N K wf).start (ix3 a b k) idx c + (takeLastDims A B N K wf).batchCoord (ix3 a b k) c
    + (takeLastDims A B N K wf).offCoord (ix3 a b k) c = _
  rw [GatherDims.batchCoord_eq_zero _ _ _ List.not_mem_nil, Nat.add_zero]
  match c with
  | ⟨0, _⟩ =>
    -- a leading axis: not in the start index map (start 0), an offset axis (the result's own coordinate)
    show 0 + a.val = a.val
    exact Nat.zero_add _
  | ⟨1, _⟩ =>
    show 0 + b.val = b.val
    exact Nat.zero_add _
  | ⟨2, h2⟩ =>
    -- the last axis: collapsed (offset 0), its start the clamped start index
    have hmem : (⟨2, h2⟩ : Fin 3) ∈ (takeLastDims A B N K wf).startIndexMap := List.mem_singleton.mpr rfl
    rw [GatherDims.offCoord_eq_zero _ _ _ (fun h => ((GatherDims.mem_sKept _ _).mp h).1 (List.mem_singleton.mpr rfl)),
      Nat.add_zero]
    unfold GatherDims.start
    rw [dif_pos hmem]
    have hsi : (takeLastDims A B N K wf).siIdx (ix3 a b k) ⟨List.idxOf (⟨2, h2⟩ : Fin 3) (takeLastDims A B N K wf).startIndexMap,
        List.idxOf_lt_length_iff.2 hmem⟩ = ix2 k (0 : Fin 1) := by
      funext e; refine Fin.ext ?_
      match e with
      | ⟨0, _⟩ => rfl
      | ⟨1, _⟩ => rfl
    rw [hsi]
    rfl

end Cert.TakeLast

end
-- ==== Proof.RefValue.lean ====
/-
  The reference's value, index by index.

  The reference reads its argument `x : [4, 4096, 4096]` through a table `T` of 1024 signed 32-bit integers: it adds 4096
  to the negative entries of `T`, gathers `x` along the last axis at the resulting positions, and keeps a gathered entry
  only where the position lies in `[0, 4095]` (elsewhere it writes a fixed word). This module states that value as one
  term `out T x` of the table and the argument and proves: when entry `k` of the table is the word of `4·k`, every
  position is `4·k`, in range, so `out T x` at `(b, r, k)` is `x` at `(b, r, 4·k)` — every fourth entry along the last
  axis. The table stays a variable throughout; its entries enter through the one hypothesis.
-/
import proofs.«112296_g15977278341198_cont_week2b_1507_23_alg».proof.Proof.Gen.ReferenceIdeal
import proofs.«112296_g15977278341198_cont_week2b_1507_23_alg».proof.Proof.Spec
import proofs.«112296_g15977278341198_cont_week2b_1507_23_alg».proof.Proof.LibTakeLast
import Idealize.ShloMosaic.Lib.WordArith
import Idealize.ShloMosaic.PureOps.Reduce

noncomputable section

namespace Cert.ReferenceIdeal.RefValue

open Cert.ReferenceIdeal Cert.ReferenceIdeal.Gen Idealize.ShloMosaic Idealize.ShloMosaic.ValueIdx

variable {F : FTy → Type} [FloatOps F]

/-! ## Words: a small natural number as a signed 32-bit integer -/

/-- A natural number below 2³¹, as a 32-bit word, is not below zero as a signed integer. -/
theorem slt_zero (n : Nat) (h : n < 2 ^ 31) : IntOp.cmpi .slt (BitVec.ofNat 32 n) 0#32 = 0#1 := by
  show BitVec.ofBool (decide ((BitVec.ofNat 32 n).toInt < (0#32).toInt)) = 0#1
  rw [WordArith.toInt_ofNat_small n h, BitVec.toInt_zero, decide_eq_false (by omega)]
  rfl

/-- It is at least zero as a signed integer. -/
theorem sge_zero (n : Nat) (h : n < 2 ^ 31) : IntOp.cmpi .sge (BitVec.ofNat 32 n) 0#32 = 1#1 := by
  show BitVec.ofBool (decide ((0#32).toInt ≤ (BitVec.ofNat 32 n).toInt)) = 1#1
  rw [WordArith.toInt_ofNat_small n h, BitVec.toInt_zero, decide_eq_true (by omega)]
  rfl

/-- A natural number at most 4095 is at most 4095 as a signed integer. -/
theorem sle_4095 (n : Nat) (h : n ≤ 4095) : IntOp.cmpi .sle (BitVec.ofNat 32 n) 4095#32 = 1#1 := by
  show BitVec.ofBool (decide ((BitVec.ofNat 32 n).toInt ≤ (BitVec.ofNat 32 4095).toInt)) = 1#1
  rw [WordArith.toInt_ofNat_small n (by omega), WordArith.toInt_ofNat_small 4095 (by omega), decide_eq_true (by omega)]
  rfl

/-- Read back as a signed integer and then as a natural number, it is itself. -/
theorem toInt_toNat_ofNat (n : Nat) (h : n < 2 ^ 31) : (BitVec.ofNat 32 n).toInt.toNat = n := by
  rw [WordArith.toInt_ofNat_small n h]
  exact Int.toNat_natCast n

/-- A left fold by `and` over one-bit words that are all 1, started at 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_one f l (fun n hn => h n (List.mem_cons_of_mem _ hn))

/-! ## The reference's value as a term of the table and the argument -/

/-- The table with 4096 added to its negative entries. -/
def wrapped (T : IVec S1024 32) : IVec S1024 32 :=
  select (cmpi .slt T (broadcastInDim S1024 ![] bcast_S_S1024 (constantI S_ 32 0#32)))
    (addi T (broadcastInDim S1024 ![] bcast_S_S1024 (constantI S_ 32 4096#32))) T

/-- The positions read, as a column: one start index per result column. -/
def starts (T : IVec S1024 32) : IVec S1024x1 32 :=
  broadcastInDim S1024x1 ![0] bcast_S1024_S1024x1_0 (wrapped T)

/-- Per result column, whether its position lies in `[0, 4095]`. -/
def inRange (T : IVec S1024 32) : IVec S1024 1 :=
  Host.reduce IntOp.andi
    (andi (cmpi .sge (starts T) (broadcastInDim S1024x1 ![] bcast_S_S1024x1 (constantI S_ 32 0#32)))
      (cmpi .sle (starts T) (broadcastInDim S1024x1 ![0, 1] bcast_S1x1_S1024x1_0_1
        (broadcastInDim S1x1 ![1] bcast_S1_S1x1_1 (constantI S1 32 4095#32)))))
    (constantI S_ 1 1#1) reducesTo_S1024x1_S1024_d1 h_S_

/-- The reference's result: the gathered entries where the position is in range, a fixed word elsewhere. -/
def out (T : IVec S1024 32) (x : FVec F S4x4096x4096 .f32) : FVec F S4x4096x1024 .f32 :=
  select (broadcastInDim S4x4096x1024 ![2] bcast_S1024_S4x4096x1024_2 (inRange T))
    (Host.gather gather_S4x4096x4096_S1024x1_S4x4096x1024_01_2_n_n_2_1_440961 x (starts T))
    (broadcastInDim S4x4096x1024 ![] bcast_S_S4x4096x1024 (constant S_ .f32 0x7FC00000#32))

/-! ## With the table `k ↦ 4·k` -/

section Table

variable (T : IVec S1024 32) (hT : ∀ k : Fin 1024, T (ix1 k) = BitVec.ofNat 32 (4 * k.val))
include hT

/-- No entry is negative, so none is moved: position `k` is `4·k`. -/
theorem wrapped_apply (k : Fin 1024) : wrapped T (ix1 k) = BitVec.ofNat 32 (4 * k.val) := by
  show Scalar.select (IntOp.cmpi .slt (T (ix1 k)) 0#32) (IntOp.addi (T (ix1 k)) 4096#32) (T (ix1 k)) = _
  rw [hT k, slt_zero _ (by have := k.isLt; omega), select_zero]

omit hT in
/-- The column of positions at row `k` is position `k`. -/
theorem starts_apply (k : Fin 1024) (z : Fin 1) : starts T (ix2 k z) = wrapped T (ix1 k) := by
  unfold starts broadcastInDim
  refine congrArg (wrapped T) (funext fun a => ?_)
  match a with
  | ⟨0, _⟩ => rfl

/-- Every position is in range. -/
theorem inRange_apply (k : Fin 1024) : inRange T (ix1 k) = 1#1 := by
  unfold inRange
  rw [Host.reduce_eq_foldl]
  refine foldl_andi_one _ _ (fun i _ => ?_)
  obtain ⟨k', z, rfl⟩ : ∃ (k' : Fin 1024) (z : Fin 1), i = ix2 k' z := ⟨i 0, i 1, eq_ix2 i⟩
  show IntOp.andi (IntOp.cmpi .sge (starts T (ix2 k' z)) 0#32) (IntOp.cmpi .sle (starts T (ix2 k' z)) 4095#32) = 1#1
  rw [starts_apply, wrapped_apply T hT, sge_zero _ (by have := k'.isLt; omega), sle_4095 _ (by have := k'.isLt; omega)]
  decide

/-- THE VALUE: entry `(b, r, k)` of the reference's result is entry `(b, r, 4·k)` of its argument. -/
theorem out_eq_pick (x : FVec F S4x4096x4096 .f32) : out T x = Cert.EveryFourth.pick x := by
  funext j
  obtain ⟨b, r, k, rfl⟩ : ∃ (b : Fin 4) (r : Fin 4096) (k : Fin 1024), j = ix3 b r k := ⟨j 0, j 1, j 2, eq_ix3 j⟩
  rw [Cert.EveryFourth.pick_ix3]
  unfold out
  rw [select_apply]
  -- the condition at (b, r, k) is the range bit of column k, which is 1
  have hm : broadcastInDim S4x4096x1024 ![2] bcast_S1024_S4x4096x1024_2 (inRange T) (ix3 b r k) = 1#1 := by
    have e : broadcastInDim S4x4096x1024 ![2] bcast_S1024_S4x4096x1024_2 (inRange T) (ix3 b r k) = inRange T (ix1 k) := by
      unfold broadcastInDim
      refine congrArg (inRange T) (funext fun a => ?_)
      match a with
      | ⟨0, _⟩ => rfl
    rw [e, inRange_apply T hT k]
  rw [hm, select_one]
  -- the gather reads the argument at the clamped position, and the position needs no clamping
  show Host.gather (Cert.TakeLast.takeLastDims 4 4096 4096 1024 gather_S4x4096x4096_S1024x1_S4x4096x1024_01_2_n_n_2_1_440961_wf) x (starts T) (ix3 b r k) = _
  rw [Cert.TakeLast.gather_takeLast_apply (by decide)]
  refine congrArg x (congrArg (ix3 b r) (Fin.ext ?_))
  show min (starts T (ix2 k (0 : Fin 1))).toInt.toNat (4096 - 1) = 4 * k.val
  rw [starts_apply, wrapped_apply T hT, toInt_toNat_ofNat _ (by have := k.isLt; omega)]
  have := k.isLt
  omega

end Table

end Cert.ReferenceIdeal.RefValue

end
-- ==== Proof.RefRun.lean ====
/-
  The reference's run and its result.

  The reference's @main is a straight line of 24 array operations: the constant index table, then the body of the
  function it calls (which in turn calls a three-operand select), each operation writing a buffer of its own. This
  module lists those operations in order over the buffers of the two calls (`ops`), shows @main is that line
  (`main_eq`), and reads the line's result back: run from any memory, @main ends with its result buffer at the term
  `out table x` of the index table and the argument's launch contents `x` (`out_eq`), the argument unchanged
  (`arg0_eq`). Since entry `k` of the table is the word of `4·k`, that term is every fourth entry of `x` along the last
  axis (`out_eq_pick`), which is the statement `run`.
-/
import proofs.«112296_g15977278341198_cont_week2b_1507_23_alg».proof.Proof.RefTable
import proofs.«112296_g15977278341198_cont_week2b_1507_23_alg».proof.Proof.RefValue
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 24 operations in order, the calls unfolded, over an index table `T`: the table; the called function's
    comparison with zero, sum with 4096 and — the inner call's one operation — the select between them; the positions
    as a column; the two range comparisons, their conjunction and its reduction along the unit axis; the gather; the
    range bit broadcast over the result; the fixed word broadcast; the final select. -/
abbrev ops (T : IVec S1024 32) : List (HloOp τ sig (Elt F)) :=
  [ nullary main_c T,
    TRef.nullary main_call0.c (constantI S_ 32 0#32),
    TRef.unary main_call0.c main_call0.v0 (broadcastInDim S1024 ![] bcast_S_S1024),
    TRef.binary (.of main_c) main_call0.v0 main_call0.v1 (cmpi .slt),
    TRef.nullary main_call0.c_0 (constantI S_ 32 4096#32),
    TRef.unary main_call0.c_0 main_call0.v2 (broadcastInDim S1024 ![] bcast_S_S1024),
    TRef.binary (.of main_c) main_call0.v2 main_call0.v3 addi,
    TRef.ternary main_call0.v1 main_call0.v3 (.of main_c) main_call0.call0.v0 select,
    TRef.unary main_call0.call0.v0 main_call0.v5 (broadcastInDim S1024x1 ![0] bcast_S1024_S1024x1_0),
    TRef.nullary main_call0.c_1 (constantI S1 32 4095#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg0) main_call0.v5 main_call0.v13 (fun x i => Host.gather gather_S4x4096x4096_S1024x1_S4x4096x1024_01_2_n_n_2_1_440961 x i),
    TRef.unary main_call0.v12 main_call0.v14 (broadcastInDim S4x4096x1024 ![2] bcast_S1024_S4x4096x1024_2),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select ]

set_option maxRecDepth 1024 in
/-- @main is that straight line at the reference's table: the two functions' definitions unfolded at their calls and
    the records at their fields, both sides are one chain of steps once sequencing is reassociated. -/
theorem main_eq (c : Dev nD) : main (F := F) c = seq (ops table) := by
  simp only [main, fn_take.body, fn_where.body, seq, bind_assoc, pure_bind]
  rfl

attribute [local irreducible] Host.reduce Host.gather in
set_option maxRecDepth 8192 in
set_option maxHeartbeats 800000 in
/-- The fold at the result buffer is `out` of the table and the argument's contents, by computation: with `out` spelt
    out, each operation's result at its own buffer is rewritten to its function's value and at any other buffer to
    what was there, outermost first; the typed references' casts are the identity at these literal references. The
    reduction and the gather are kept folded meanwhile: the equation never looks inside them. -/
theorem out_eq (T : IVec S1024 32) (V : Valuation τ sig (Elt F)) :
    after (ops T) V (main_v0 : DevRef τ sig) = out T (V (main_arg0 : DevRef τ sig)) := by
  unfold out inRange starts wrapped
  after_results
  all_goals rfl

/-- No operation writes the argument's buffer. -/
theorem arg0_eq (T : IVec S1024 32) (V : Valuation τ sig (Elt F)) :
    after (ops T) V (main_arg0 : DevRef τ sig) = V (main_arg0 : DevRef τ sig) := by
  after_results
  all_goals rfl

theorem scopedRefs_eq : (Finset.univ.filter fun b : Ref sig .tc => b.isScoped) = ∅ := by decide
theorem scopedSems_eq : (Finset.univ.filter fun sm : SemLoc sig => sm.isScoped .tc) = ∅ := by decide

theorem ops_sub (T : IVec S1024 32) : (ops T : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops table) (launchContents m c) (b : DevRef τ sig) :=
  run_seq scopedRefs_eq scopedSems_eq defs main (fun _ => ops table) main_eq (fun _ => ops_sub table) m ρ

/-- THE RUN: on every device, from any memory with zero counters, every weakly fair execution of the reference's @main
    terminates with its result every fourth entry, along the last axis, of the argument's launch contents, and the
    argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = Cert.EveryFourth.pick (m ((c.tc : Thread nD τ).loc main_arg0))
      ∧ r.2.mem ((c.tc : Thread nD τ).loc main_arg0) = m ((c.tc : Thread nD τ).loc main_arg0) :=
  (θ_run defs _ _).mono (fun _ h c =>
      ⟨(h c main_v0).trans ((out_eq table (launchContents m c)).trans (out_eq_pick table table_apply _)),
        (h c main_arg0).trans (arg0_eq table (launchContents m c))⟩)
    (run_main m ρ)

end Cert.ReferenceIdeal.RefValue

end
-- ==== Proof.lean ====
/-
  The certificate's five claims.

  Both programs keep every fourth entry along the last axis of a [4, 4096, 4096] array. The kernel
  does it by arithmetic: it flattens the array to [16384, 4096], and on each block of 1024 rows
  multiplies each run of 512 columns by a [512, 128] matrix of ones and zeros whose column l has its
  single one at row 4·l. On the extended reals such a product has one term that is a product with
  one and 511 terms that are products with zero, and zero times any extended real is zero, so it
  keeps column 4·l of the run: no finiteness of the input is needed for this. The reference does it
  by indexing: it gathers, along the last axis, at the literal table 0, 4, 8, …, 4092, and since
  every entry of the table lies inside the axis, its bounds mask is true everywhere and the fill
  value is never chosen. Each program's run is stated against the same function of the argument
  (`Cert.EveryFourth.pick`), so the two results are equal entry by entry.

  The idealization rewrote nothing, so its claim is trivial; the kernel's two frames are the
  generated ones; the reference's frame is its run with the result dropped.
-/
import proofs.«112296_g15977278341198_cont_week2b_1507_23_alg».proof.Defs
import proofs.«112296_g15977278341198_cont_week2b_1507_23_alg».proof.Proof.Gen.Kernel
import proofs.«112296_g15977278341198_cont_week2b_1507_23_alg».proof.Proof.Gen.Kernel.Frame
import proofs.«112296_g15977278341198_cont_week2b_1507_23_alg».proof.Proof.Gen.KernelIdeal
import proofs.«112296_g15977278341198_cont_week2b_1507_23_alg».proof.Proof.Gen.KernelIdeal.Frame
import proofs.«112296_g15977278341198_cont_week2b_1507_23_alg».proof.Proof.Gen.ReferenceIdeal
import proofs.«112296_g15977278341198_cont_week2b_1507_23_alg».proof.Proof.Gen.Pre_finite_inputs
import proofs.«112296_g15977278341198_cont_week2b_1507_23_alg».proof.Proof.Spec
import proofs.«112296_g15977278341198_cont_week2b_1507_23_alg».proof.Proof.KerRun
import proofs.«112296_g15977278341198_cont_week2b_1507_23_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the argument both programs end with every fourth entry, along the
    last axis, of that argument. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
